-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x128 .f32) (main_arg1 : IVec S2x1600000 32) (main_arg2 : FVec F S3x128x128 .f32) (main_arg3 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1700000x128 : Shape := ⟨2, ![1700000, 128]⟩

abbrev nBuf : Space → Nat
  | .hbm => 106
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S1x128x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_8 : Ref sig .tc := ⟨.hbm, 69, rfl⟩
abbrev main_v55 : Ref sig .tc := ⟨.hbm, 70, rfl⟩
abbrev main_v56 : Ref sig .tc := ⟨.hbm, 71, rfl⟩
abbrev main_c_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_11 : Ref sig .tc := ⟨.hbm, 91, rfl⟩
abbrev main_v74 : Ref sig .tc := ⟨.hbm, 92, rfl⟩
abbrev main_v75 : Ref sig .tc := ⟨.hbm, 93, rfl⟩
abbrev main_c_12 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_1_0_0 : S3x128x128.Slices ![1, 0, 0] S1x128x128
  slices_S3x128_S1x128_1_0 : S3x128.Slices ![1, 0] S1x128
  shapeCasts_S5000x128_S5000x128 : S5000x128.ShapeCasts S5000x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1700000x128 : Shape := ⟨2, ![1700000, 128]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S128x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S1x128x128, .f32⟩
  | .hbm, ⟨105, _⟩ => ⟨S128x128, .f32⟩
  | .hbm, ⟨106, _⟩ => ⟨S1x128, .f32⟩
  | .hbm, ⟨107, _⟩ => ⟨S128, .f32⟩
  | .hbm, ⟨108, _⟩ => ⟨S128x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S_, .i32⟩
  | .hbm, ⟨114, _⟩ => ⟨S1700000, .i32⟩
  | .hbm, ⟨115, _⟩ => ⟨S1700000, .i1⟩
  | .hbm, ⟨116, _⟩ => ⟨S_, .i32⟩
  | .hbm, ⟨117, _⟩ => ⟨S1700000, .i32⟩
  | .hbm, ⟨118, _⟩ => ⟨S1700000, .i32⟩
  | .hbm, ⟨119, _⟩ => ⟨S1700000, .i32⟩
  | .hbm, ⟨120, _⟩ => ⟨S1700000x1, .i32⟩
  | .hbm, ⟨121, _⟩ => ⟨S1700000x128, .f32⟩
  | .hbm, ⟨122, _⟩ => ⟨S1700000x128, .f32⟩
  | .hbm, ⟨123, _⟩ => ⟨S1700000x128, .f32⟩
  | .hbm, ⟨124, _⟩ => ⟨S_, .f32⟩
  | .hbm, ⟨125, _⟩ => ⟨S100000x128, .f32⟩
  | .hbm, ⟨126, _⟩ => ⟨S1700000x1, .i32⟩
  | .hbm, ⟨127, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_10 : Ref sig .tc := ⟨.hbm, 81, rfl⟩
abbrev main_v65 : Ref sig .tc := ⟨.hbm, 82, rfl⟩
abbrev main_v66 : Ref sig .tc := ⟨.hbm, 83, rfl⟩
abbrev main_c_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_v80 : Ref sig .tc := ⟨.hbm, 100, rfl⟩
abbrev main_cst_14 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_15 : Ref sig .tc := ⟨.hbm, 113, rfl⟩
abbrev main_v92 : Ref sig .tc := ⟨.hbm, 114, rfl⟩
abbrev main_v93 : Ref sig .tc := ⟨.hbm, 115, rfl⟩
abbrev main_c_16 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_17 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program, run whole: three grid-pipelined regions among four stretches of host operations.
  Every weakly fair execution ends, and the result buffer then holds what the last stretch of host operations
  leaves there, started from the contents the third region leaves, and so on back to the launch memory: the
  chain of boundary contents the generated frame module names (W0 … W7). The argument arrays end as launched.
  The statement is the library's run theorem for a list of segments, read at the result buffer as well as at
  the arguments.
-/
import proofs.«132515_j22058952032941_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named: the result buffer ends at the last boundary's contents, the
    arguments as launched. -/
theorem run_result : θ_run defs (onTc (τ := τ) (main (F := F))) ⟨m, fun _ => 0, ρ⟩ (fun r => ∀ c : Dev nD,
      r.2.mem ((c.tc : Thread nD τ).loc main_v85) = W7 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v85 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Whole

end
-- ==== Proof.HostParts.lean ====
/-
  The host side of the kernel program, named. Between its three regions the program computes, with plain array
  operations: the edge list's two node columns with a self loop per node appended (rows, cols); from them the
  symmetric normalisation, one scalar per edge, deg^(-1/2) at the edge's source times deg^(-1/2) at its target,
  as a column (nrm); and, per layer, the propagation of a node matrix h along the edges, scatter-add over the
  target of nrm · h[source] (prop), the layer's weight matrix transposed (wT) and its bias as a row (bR).
  Each stretch of host operations, run from ANY buffer contents, leaves these functions of the contents it starts
  from in the buffers the next region or stretch reads, and leaves the buffers it does not write as they were.
-/
import proofs.«132515_j22058952032941_1_alg».proof.Proof.Gen.KernelIdeal.Launch
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- The source nodes of the edges, then one self loop per node. -/
def rowOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The target nodes of the edges, then one self loop per node. -/
def colOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A node list as gather indices: a negative entry counted from the end, the list as a column. -/
def wrapOf (r : (⟨S1700000, .i32⟩ : BufTy).Contents (Elt F)) : (⟨S1700000x1, .i32⟩ : BufTy).Contents (Elt F) :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- deg^(-1/2): the degree counts the edges out of a node. -/
def degInvSqrtOf (r : (⟨S1700000, .i32⟩ : BufTy).Contents (Elt F)) : (⟨S100000, .f32⟩ : BufTy).Contents (Elt F) :=
  Host.powf
    (Host.scatterAdd scatter_S100000_S1700000x1_S1700000_n_0_0_1
      (broadcastInDim S100000 ![] bcast_S_S100000 (constant S_ .f32 0x00000000#32))
      (broadcastInDim S1700000x1 ![0] bcast_S1700000_S1700000x1_0 r)
      (broadcastInDim S1700000 ![] bcast_S_S1700000 (constant S_ .f32 0x3F800000#32)))
    (broadcastInDim S100000 ![] bcast_S_S100000 (constant S_ .f32 0xBF000000#32))

/-- The normalisation of every edge, as a column. -/
def nrmOf (r c : (⟨S1700000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (degInvSqrtOf r) (wrapOf r))
      (Host.gather gather_S100000_S1700000x1_S1700000_n_0_n_n_0_1_1 (degInvSqrtOf r) (wrapOf c)))

/-- One propagation along the edges: at each target node the sum over its edges of nrm · h[source]. -/
def propOf (r c : (⟨S1700000, .i32⟩ : BufTy).Contents (Elt F)) (n : (⟨S1700000x1, .f32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 c)
    (mulf (broadcastInDim S1700000x128 ![0, 1] bcast_S1700000x1_S1700000x128_0_1 n)
      (Host.gather gather_S100000x128_S1700000x1_S1700000x128_1_0_n_n_0_1_1128 h (wrapOf r)))

/-- Layer 0's weight matrix, transposed. -/
def wT0 (w : (⟨S3x128x128, .f32⟩ : BufTy).Contents (Elt F)) : (⟨S128x128, .f32⟩ : BufTy).Contents (Elt F) :=
  transpose S128x128 [1, 0] (shapeCast S128x128 (extractStridedSlice S1x128x128 ![0, 0, 0] w slices_S3x128x128_S1x128x128_0_0_0) shapeCasts_S1x128x128_S128x128) transposes_S128x128_S128x128_1_0
/-- Layer 1's weight matrix, transposed. -/
def wT1 (w : (⟨S3x128x128, .f32⟩ : BufTy).Contents (Elt F)) : (⟨S128x128, .f32⟩ : BufTy).Contents (Elt F) :=
  transpose S128x128 [1, 0] (shapeCast S128x128 (extractStridedSlice S1x128x128 ![1, 0, 0] w slices_S3x128x128_S1x128x128_1_0_0) shapeCasts_S1x128x128_S128x128) transposes_S128x128_S128x128_1_0
/-- Layer 2's weight matrix, transposed. -/
def wT2 (w : (⟨S3x128x128, .f32⟩ : BufTy).Contents (Elt F)) : (⟨S128x128, .f32⟩ : BufTy).Contents (Elt F) :=
  transpose S128x128 [1, 0] (shapeCast S128x128 (extractStridedSlice S1x128x128 ![2, 0, 0] w slices_S3x128x128_S1x128x128_2_0_0) shapeCasts_S1x128x128_S128x128) transposes_S128x128_S128x128_1_0

/-- Layer 0's bias, as a row. -/
def bR0 (b : (⟨S3x128, .f32⟩ : BufTy).Contents (Elt F)) : (⟨S1x128, .f32⟩ : BufTy).Contents (Elt F) :=
  shapeCast S1x128 (shapeCast S128 (extractStridedSlice S1x128 ![0, 0] b slices_S3x128_S1x128_0_0) shapeCasts_S1x128_S128) shapeCasts_S128_S1x128
/-- Layer 1's bias, as a row. -/
def bR1 (b : (⟨S3x128, .f32⟩ : BufTy).Contents (Elt F)) : (⟨S1x128, .f32⟩ : BufTy).Contents (Elt F) :=
  shapeCast S1x128 (shapeCast S128 (extractStridedSlice S1x128 ![1, 0] b slices_S3x128_S1x128_1_0) shapeCasts_S1x128_S128) shapeCasts_S128_S1x128
/-- Layer 2's bias, as a row. -/
def bR2 (b : (⟨S3x128, .f32⟩ : BufTy).Contents (Elt F)) : (⟨S1x128, .f32⟩ : BufTy).Contents (Elt F) :=
  shapeCast S1x128 (shapeCast S128 (extractStridedSlice S1x128 ![2, 0] b slices_S3x128_S1x128_2_0) shapeCasts_S1x128_S128) shapeCasts_S128_S1x128

variable (W : Valuation τ sig (Elt F))

/-! ## The first stretch: the node lists, the normalisation, layer 0's parameters -/

theorem s0_row : after hostOps0 W (Proc.devRef .tc main_v3) = rowOf (W (Proc.devRef .tc main_arg1)) := by
  after_results_simp <;> rfl
theorem s0_col : after hostOps0 W (Proc.devRef .tc main_v6) = colOf (W (Proc.devRef .tc main_arg1)) := by
  after_results_simp <;> rfl
theorem s0_nrm : after hostOps0 W (Proc.devRef .tc main_v28)
    = nrmOf (rowOf (W (Proc.devRef .tc main_arg1))) (colOf (W (Proc.devRef .tc main_arg1))) := by
  after_results_simp <;> rfl
theorem s0_w : after hostOps0 W (Proc.devRef .tc main_v31) = wT0 (W (Proc.devRef .tc main_arg2)) := by
  after_results_simp <;> rfl
theorem s0_b : after hostOps0 W (Proc.devRef .tc main_v34) = bR0 (W (Proc.devRef .tc main_arg3)) := by
  after_results_simp <;> rfl
theorem s0_arg0 : after hostOps0 W (Proc.devRef .tc main_arg0) = W (Proc.devRef .tc main_arg0) := by
  after_results_simp <;> rfl
theorem s0_arg2 : after hostOps0 W (Proc.devRef .tc main_arg2) = W (Proc.devRef .tc main_arg2) := by
  after_results_simp <;> rfl
theorem s0_arg3 : after hostOps0 W (Proc.devRef .tc main_arg3) = W (Proc.devRef .tc main_arg3) := by
  after_results_simp <;> rfl

/-! ## The second stretch: layer 0 propagated, layer 1's parameters -/

theorem s1_h : after hostOps1 W (Proc.devRef .tc main_v47)
    = propOf (W (Proc.devRef .tc main_v3)) (W (Proc.devRef .tc main_v6)) (W (Proc.devRef .tc main_v28)) (W (Proc.devRef .tc main_v35)) := by
  after_results_simp <;> rfl
theorem s1_w : after hostOps1 W (Proc.devRef .tc main_v50) = wT1 (W (Proc.devRef .tc main_arg2)) := by
  after_results_simp <;> rfl
theorem s1_b : after hostOps1 W (Proc.devRef .tc main_v53) = bR1 (W (Proc.devRef .tc main_arg3)) := by
  after_results_simp <;> rfl
theorem s1_row : after hostOps1 W (Proc.devRef .tc main_v3) = W (Proc.devRef .tc main_v3) := by
  after_results_simp <;> rfl
theorem s1_col : after hostOps1 W (Proc.devRef .tc main_v6) = W (Proc.devRef .tc main_v6) := by
  after_results_simp <;> rfl
theorem s1_nrm : after hostOps1 W (Proc.devRef .tc main_v28) = W (Proc.devRef .tc main_v28) := by
  after_results_simp <;> rfl
theorem s1_arg2 : after hostOps1 W (Proc.devRef .tc main_arg2) = W (Proc.devRef .tc main_arg2) := by
  after_results_simp <;> rfl
theorem s1_arg3 : after hostOps1 W (Proc.devRef .tc main_arg3) = W (Proc.devRef .tc main_arg3) := by
  after_results_simp <;> rfl

/-! ## The third stretch: layer 1 propagated, layer 2's parameters -/

theorem s2_h : after hostOps2 W (Proc.devRef .tc main_v66)
    = propOf (W (Proc.devRef .tc main_v3)) (W (Proc.devRef .tc main_v6)) (W (Proc.devRef .tc main_v28)) (W (Proc.devRef .tc main_v54)) := by
  after_results_simp <;> rfl
theorem s2_w : after hostOps2 W (Proc.devRef .tc main_v69) = wT2 (W (Proc.devRef .tc main_arg2)) := by
  after_results_simp <;> rfl
theorem s2_b : after hostOps2 W (Proc.devRef .tc main_v72) = bR2 (W (Proc.devRef .tc main_arg3)) := by
  after_results_simp <;> rfl
theorem s2_row : after hostOps2 W (Proc.devRef .tc main_v3) = W (Proc.devRef .tc main_v3) := by
  after_results_simp <;> rfl
theorem s2_col : after hostOps2 W (Proc.devRef .tc main_v6) = W (Proc.devRef .tc main_v6) := by
  after_results_simp <;> rfl
theorem s2_nrm : after hostOps2 W (Proc.devRef .tc main_v28) = W (Proc.devRef .tc main_v28) := by
  after_results_simp <;> rfl

/-! ## The last stretch: layer 2 propagated -/

theorem s3_h : after hostOps3 W (Proc.devRef .tc main_v85)
    = propOf (W (Proc.devRef .tc main_v3)) (W (Proc.devRef .tc main_v6)) (W (Proc.devRef .tc main_v28)) (W (Proc.devRef .tc main_v73)) := by
  after_results_simp <;> rfl

end Cert.KernelIdeal.Stretch

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«132515_j22058952032941_1_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LayerAt.lean ====
/-
  One linear layer's body read at an entry, on the extended reals.
  The body loads a block x of 5000 rows, the weight matrix w [128,128] and the bias row b [1,128], and stores
  act(x) · w + b: the product into the zero accumulator, the bias row repeated down the rows. The change of
  float format on the way into the product is the identity here. At (p, q) this is
  Σ_k act(x)(p,k) · w(k,q) + b(0,q), with act the identity in the first layer and the logistic function in the
  other two.
-/
import proofs.«132515_j22058952032941_1_alg».proof.Proof.Gen.KernelIdeal.Skeleton
import proofs.«132515_j22058952032941_1_alg».proof.Proof.LibPlainDot
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Gen Idealize.ShloMosaic Idealize.ShloMosaic.ValueIdx

/-- The bias row [1,128] repeated down 5000 rows, read at (p, q), is the row's entry q. -/
theorem biasRows_at (x2 : Vec Ideal S1x128 .f32) (p : Fin 5000) (q : Fin 128) :
    broadcastTo S5000x128 (shapeCast S1x128 x2 shapeCasts_S1x128_S1x128) broadcasts_S1x128_S5000x128 (ix2 p q)
      = x2 (ix2 (0 : Fin 1) q) := by
  rw [shapeCast_self]
  refine broadcastTo_apply x2 broadcasts_S1x128_S5000x128 (ix2 p q) (ix2 (0 : Fin 1) q) fun a => ?_
  match a with
  | ⟨0, _⟩ => rfl
  | ⟨1, _⟩ => rfl

/-- The product of a block of rows with the weight matrix, into the zero accumulator, at (p, q). -/
theorem product_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibPlainDot.matmul_zero_at dot_S5000x128_S128x128_S5000x128_1_0_0_1_n_n rfl rfl rfl rfl rfl rfl rfl rfl none l r p q

/-- The first layer's stored value at (p, q): Σ_k x(p,k) · w(k,q) + b(0,q). -/
theorem pay0_at (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  have h : k0_pay1 (F := Ideal) x0 x1 x2
      = addf (matmul dot_S5000x128_S128x128_S5000x128_1_0_0_1_n_n none (truncf .bf16 x0 bitsLt_bf16_f32)
          (truncf .bf16 (shapeCast S128x128 x1 shapeCasts_S128x128_S128x128) bitsLt_bf16_f32) (constant S5000x128 .f32 0x00000000#32))
        (broadcastTo S5000x128 (shapeCast S1x128 x2 shapeCasts_S1x128_S1x128) broadcasts_S1x128_S5000x128) := rfl
  rw [h, addf_apply, biasRows_at, product_at, shapeCast_self]
  rfl

/-- A later layer's stored value at (p, q): Σ_k logistic(x(p,k)) · w(k,q) + b(0,q). -/
theorem pay1_at (x0 : Vec Ideal S5000x128 .f32) (x1 : Vec Ideal S128x128 .f32) (x2 : Vec Ideal S1x128 .f32)
    (p : Fin 5000) (q : Fin 128) :
    k1_pay1 (F := Ideal) x0 x1 x2 (ix2 p q)
      = (∑ k : Fin 128, Ideal.logistic (x0 (ix2 p k)) * x1 (ix2 k q)) + x2 (ix2 (0 : Fin 1) q) := by
  have h : k1_pay1 (F := Ideal) x0 x1 x2
      = addf (matmul dot_S5000x128_S128x128_S5000x128_1_0_0_1_n_n none
          (truncf .bf16 (logistic (shapeCast S5000x128 x0 shapeCasts_S5000x128_S5000x128)) bitsLt_bf16_f32)
          (truncf .bf16 (shapeCast S128x128 x1 shapeCasts_S128x128_S128x128) bitsLt_bf16_f32) (constant S5000x128 .f32 0x00000000#32))
        (broadcastTo S5000x128 (shapeCast S1x128 x2 shapeCasts_S1x128_S1x128) broadcasts_S1x128_S5000x128) := rfl
  rw [h, addf_apply, biasRows_at, product_at, shapeCast_self, shapeCast_self]
  rfl

/-- The third layer's body is the second's. -/
theorem pay2_at (x0 : Vec Ideal S5000x128 .f32) (x1 : Vec Ideal S128x128 .f32) (x2 : Vec Ideal S1x128 .f32)
    (p : Fin 5000) (q : Fin 128) :
    k2_pay1 (F := Ideal) x0 x1 x2 (ix2 p q)
      = (∑ k : Fin 128, Ideal.logistic (x0 (ix2 p k)) * x1 (ix2 k q)) + x2 (ix2 (0 : Fin 1) q) :=
  pay1_at x0 x1 x2 p q

end Cert.KernelIdeal.Layer

end
-- ==== Proof.Spec.lean ====
/-
  One linear layer as a whole-array function on the extended reals: for a matrix X of 100000 rows, a weight
  matrix W [128,128] and a bias row B [1,128], entry (p, q) of the layer is
      Σ_k act(X(p,k)) · W(k,q) + B(0,q),
  with act the function applied to the layer's input first (the identity, or the logistic function).
-/
import Idealize.ShloMosaic.Lib.ValueIdx
import Idealize.ShloMosaic.PureOps.Ideal

noncomputable section

namespace Cert.Spec

open Idealize.ShloMosaic Idealize.ShloMosaic.ValueIdx

/-- The linear layer: act(X) · W with the bias row added to every row. -/
def dense (act : EReal → EReal) (X : (⟨2, ![100000, 128]⟩ : Shape).Idx → EReal)
    (W : (⟨2, ![128, 128]⟩ : Shape).Idx → EReal) (B : (⟨2, ![1, 128]⟩ : Shape).Idx → EReal) :
    (⟨2, ![100000, 128]⟩ : Shape).Idx → EReal :=
  fun i => (∑ k : Fin 128, act (X (ix2 (⟨(i 0).val, (i 0).isLt⟩ : Fin 100000) k)) * W (ix2 k (⟨(i 1).val, (i 1).isLt⟩ : Fin 128)))
    + B (ix2 (0 : Fin 1) (⟨(i 1).val, (i 1).isLt⟩ : Fin 128))

/-- The layer at (p, q). -/
theorem dense_at (act : EReal → EReal) (X : (⟨2, ![100000, 128]⟩ : Shape).Idx → EReal)
    (W : (⟨2, ![128, 128]⟩ : Shape).Idx → EReal) (B : (⟨2, ![1, 128]⟩ : Shape).Idx → EReal) (p : Fin 100000) (q : Fin 128) :
    dense act X W B (ix2 p q) = (∑ k : Fin 128, act (X (ix2 p k)) * W (ix2 k q)) + B (ix2 (0 : Fin 1) q) := rfl

end Cert.Spec

end
-- ==== Proof.Region0.lean ====
/-
  Region 0 of the kernel program, from its blocks to its array. The region's grid has 20 points; point t reads
  rows 5000t … 5000t + 4999 of its input matrix, the whole weight matrix and the whole bias row, and writes back
  rows 5000t … 5000t + 4999 of its result. What it writes is the linear layer of the arrays the region finds
  (Spec.lean) read through that block, and the 20 blocks fill the result array: the array ends at the layer.
-/
import proofs.«132515_j22058952032941_1_alg».proof.Proof.Gen.KernelIdeal.Frame
import proofs.«132515_j22058952032941_1_alg».proof.Proof.LayerAt
import proofs.«132515_j22058952032941_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev layer (c : Dev nD) : Buf (Elt Ideal) ((c : Thread nD τ).loc main_v35) :=
  Cert.Spec.dense id (V c main_arg0) (V c main_v31) (V c main_v34)

/-- The index maps over the grid: the row windows move one block per point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t, entry (p, k), is the input matrix at row 5000t + p. -/
theorem rows_at (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := idx_facts t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's one block is the weight matrix. -/
theorem weights_at (c : Dev nD) (t : Fin cfg0.N) (k : Fin 128) (q : Fin 128) :
    (iblk0 V c 1 t : Vec Ideal S128x128 .f32) (ix2 k q) = (V c main_v31 : S128x128.Idx → EReal) (ix2 k q) := by
  obtain ⟨-, -, e0, e1, -⟩ := idx_facts t
  show (V c main_v31 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's one block is the bias row. -/
theorem bias_at (c : Dev nD) (t : Fin cfg0.N) (z : Fin 1) (q : Fin 128) :
    (iblk0 V c 2 t : Vec Ideal S1x128 .f32) (ix2 z q) = (V c main_v34 : S1x128.Idx → EReal) (ix2 z q) := by
  obtain ⟨-, -, -, -, e0, e1, -⟩ := idx_facts t
  show (V c main_v34 : S1x128.Idx → EReal) (((cfg0.win 2).blk t).view.emb (ix2 z q)) = _
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- What point t writes back is block t of the layer. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, e0, e1⟩ := idx_facts t
  have ht : t.val < 20 := Nat.lt_of_lt_of_eq t.isLt N_0
  have hr : t.val * 5000 + p.val < 100000 := by have := p.isLt; omega
  have hemb : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q) = layer V c (((cfg0.win 3).blk t).view.emb (ix2 p q))
  rw [hemb]
  refine (Cert.KernelIdeal.Layer.pay0_at (iblk0 V c 0 t) (iblk0 V c 1 t) (iblk0 V c 2 t) p q).trans ?_
  refine Eq.trans ?_ (Cert.Spec.dense_at id (V c main_arg0) (V c main_v31) (V c main_v34) ⟨t.val * 5000 + p.val, hr⟩ q).symm
  rw [bias_at V c t 0 q]
  refine congrArg (· + _) (Finset.sum_congr rfl fun k _ => ?_)
  exact congrArg₂ (· * ·) (congrArg id (rows_at V c t p k ⟨t.val * 5000 + p.val, hr⟩ rfl)) (weights_at V c t k q)

/-- An index of the result array is in point t's block iff each coordinate is in the block's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

/-- Every row of the result is in the block of the point its row number divided by 5000 names. -/
theorem cover (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e0, e1⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The result array after the region: the layer of the arrays the region found. -/
theorem final (c : Dev nD) : (dat0 V c).arrAt 3 cfg0.N = layer V c :=
  (dat0 V c).arrAt_eq_of_cover 3 (layer V c) (fun t _ => flushed_eq V c t) cover

end Cert.KernelIdeal.Region0

end
-- ==== Proof.Region1.lean ====
/-
  Region 1 of the kernel program, from its blocks to its array. The region's grid has 20 points; point t reads
  rows 5000t … 5000t + 4999 of its input matrix, the whole weight matrix and the whole bias row, and writes back
  rows 5000t … 5000t + 4999 of its result. What it writes is the linear layer of the arrays the region finds
  (Spec.lean) read through that block, and the 20 blocks fill the result array: the array ends at the layer.
-/
import proofs.«132515_j22058952032941_1_alg».proof.Proof.Gen.KernelIdeal.Frame
import proofs.«132515_j22058952032941_1_alg».proof.Proof.LayerAt
import proofs.«132515_j22058952032941_1_alg».proof.Proof.Spec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev layer (c : Dev nD) : Buf (Elt Ideal) ((c : Thread nD τ).loc main_v54) :=
  Cert.Spec.dense Ideal.logistic (V c main_v47) (V c main_v50) (V c main_v53)

/-- The index maps over the grid: the row windows move one block per point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t, entry (p, k), is the input matrix at row 5000t + p. -/
theorem rows_at (c : Dev nD) (t : Fin cfg1.N) (p : Fin 5000) (k : Fin 128) (r : Fin 100000) (hr : r.val = t.val * 5000 + p.val) :
    (iblk1 V c 0 t : Vec Ideal S5000x128 .f32) (ix2 p k) = (V c main_v47 : S100000x128.Idx → EReal) (ix2 r k) := by
  obtain ⟨e0, e1, -⟩ := idx_facts t
  show (V c main_v47 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight window's one block is the weight matrix. -/
theorem weights_at (c : Dev nD) (t : Fin cfg1.N) (k : Fin 128) (q : Fin 128) :
    (iblk1 V c 1 t : Vec Ideal S128x128 .f32) (ix2 k q) = (V c main_v50 : S128x128.Idx → EReal) (ix2 k q) := by
  obtain ⟨-, -, e0, e1, -⟩ := idx_facts t
  show (V c main_v50 : S128x128.Idx → EReal) (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias window's one block is the bias row. -/
theorem bias_at (c : Dev nD) (t : Fin cfg1.N) (z : Fin 1) (q : Fin 128) :
    (iblk1 V c 2 t : Vec Ideal S1x128 .f32) (ix2 z q) = (V c main_v53 : S1x128.Idx → EReal) (ix2 z q) := by
  obtain ⟨-, -, -, -, e0, e1, -⟩ := idx_facts t
  show (V c main_v53 : S1x128.Idx → EReal) (((cfg1.win 2).blk t).view.emb (ix2 z q)) = _
  refine congrArg _ (funext fun a => Fin.ext ?_)
  match a with
  | ⟨0, _⟩ => show win1_2.index t (0 : Fin 2) * 1 + 1 * z.val = z.val; omega
  | ⟨1, _⟩ => show win1_2.index t (1 : Fin 2) * 128 + 1 * q.val = q.val; omega

/-- What point t writes back is block t of the layer. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, e0, e1⟩ := idx_facts t
  have ht : t.val < 20 := Nat.lt_of_lt_of_eq t.isLt N_1
  have hr : t.val * 5000 + p.val < 100000 := by have := p.isLt; omega
  have hemb : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q) = layer V c (((cfg1.win 3).blk t).view.emb (ix2 p q))
  rw [hemb]
  refine (Cert.KernelIdeal.Layer.pay1_at (iblk1 V c 0 t) (iblk1 V c 1 t) (iblk1 V c 2 t) p q).trans ?_
  refine Eq.trans ?_ (Cert.Spec.dense_at Ideal.logistic (V c main_v47) (V c main_v50) (V c main_v53) ⟨t.val * 5000 + p.val, hr⟩ q).symm
  rw [bias_at V c t 0 q]
  refine congrArg (· + _) (Finset.sum_congr rfl fun k _ => ?_)
  exact congrArg₂ (· * ·) (congrArg Ideal.logistic (rows_at V c t p k ⟨t.val * 5000 + p.val, hr⟩ rfl)) (weights_at V c t k q)

/-- An index of the result array is in point t's block iff each coordinate is in the block's range. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v54).slice (win1_3.rect t)).set ↔ _
  rw [View.set_slice_whole, Rect.mem_set_unit]
  exact Iff.rfl

/-- Every row of the result is in the block of the point its row number divided by 5000 names. -/
theorem cover (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e0, e1⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- The result array after the region: the layer of the arrays the region found. -/
theorem final (c : Dev nD) : (dat1 V c).arrAt 3 cfg1.N = layer V c :=
  (dat1 V c).arrAt_eq_of_cover 3 (layer V c) (fun t _ => flushed_eq V c t) cover

end Cert.KernelIdeal.Region1

end
-- ==== Proof.Region2.lean ====
/-
  Region 2 of the kernel program, from its blocks to its array. The region's grid has 20 points; point t reads
  rows 5000t … 5000t + 4999 of its input matrix, the whole weight matrix and the whole bias row, and writes back
  rows 5000t … 5000t + 4999 of its result. What it writes is the linear layer of the arrays the region finds
  (Spec.lean) read through that block, and the 20 blocks fill the result array: the array ends at the layer.
-/
import proofs.«132515_j22058952032941_1_alg».proof.Proof.Gen.KernelIdeal.Frame
import proofs.«132515_j22058952032941_1_alg».proof.Proof.LayerAt
import proofs.«132515_j22058952032941_1_alg».proof.Proof.Spec
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev layer (c : Dev nD) : Buf (Elt Ideal) ((c : Thread nD τ).loc main_v73) :=
  Cert.Spec.dense Ideal.logistic (V c main_v66) (V c main_v69) (V c main_v72)

/-- The index maps over the grid: the row windows move one block per point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t, entry (p, k), is the input matrix at row 5000t + p. -/
theorem rows_at (c : Dev nD) (t : Fin cfg2.N) (p : Fin 5000) (k : Fin 128) (r : Fin 100000) (hr : r.val = t.val * 5000 + p.val) :
    (iblk2 V c 0 t : Vec Ideal S5000x128 .f32) (ix2 p k) = (V c main_v66 : S100000x128.Idx → EReal) (ix2 r k) := by
  obtain ⟨e0, e1, -⟩ := idx_facts t
  show (V c main_v66 : S100000x128.Idx → EReal) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight window's one block is the weight matrix. -/
theorem weights_at (c : Dev nD) (t : Fin cfg2.N) (k : Fin 128) (q : Fin 128) :
    (iblk2 V c 1 t : Vec Ideal S128x128 .f32) (ix2 k q) = (V c main_v69 : S128x128.Idx → EReal) (ix2 k q) := by
  obtain ⟨-, -, e0, e1, -⟩ := idx_facts t
  show (V c main_v69 : S128x128.Idx → EReal) (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The bias window's one block is the bias row. -/
theorem bias_at (c : Dev nD) (t : Fin cfg2.N) (z : Fin 1) (q : Fin 128) :
    (iblk2 V c 2 t : Vec Ideal S1x128 .f32) (ix2 z q) = (V c main_v72 : S1x128.Idx → EReal) (ix2 z q) := by
  obtain ⟨-, -, -, -, e0, e1, -⟩ := idx_facts t
  show (V c main_v72 : S1x128.Idx → EReal) (((cfg2.win 2).blk t).view.emb (ix2 z q)) = _
  refine congrArg _ (funext fun a => Fin.ext ?_)
  match a with
  | ⟨0, _⟩ => show win2_2.index t (0 : Fin 2) * 1 + 1 * z.val = z.val; omega
  | ⟨1, _⟩ => show win2_2.index t (1 : Fin 2) * 128 + 1 * q.val = q.val; omega

/-- What point t writes back is block t of the layer. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, e0, e1⟩ := idx_facts t
  have ht : t.val < 20 := Nat.lt_of_lt_of_eq t.isLt N_2
  have hr : t.val * 5000 + p.val < 100000 := by have := p.isLt; omega
  have hemb : ((cfg2.win 3).blk t).view.emb (ix2 p q) = ix2 (⟨t.val * 5000 + p.val, hr⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (F := Ideal) (iblk2 V c 0 t) (iblk2 V c 1 t) (iblk2 V c 2 t) (ix2 p q) = layer V c (((cfg2.win 3).blk t).view.emb (ix2 p q))
  rw [hemb]
  refine (Cert.KernelIdeal.Layer.pay2_at (iblk2 V c 0 t) (iblk2 V c 1 t) (iblk2 V c 2 t) p q).trans ?_
  refine Eq.trans ?_ (Cert.Spec.dense_at Ideal.logistic (V c main_v66) (V c main_v69) (V c main_v72) ⟨t.val * 5000 + p.val, hr⟩ q).symm
  rw [bias_at V c t 0 q]
  refine congrArg (· + _) (Finset.sum_congr rfl fun k _ => ?_)
  exact congrArg₂ (· * ·) (congrArg Ideal.logistic (rows_at V c t p k ⟨t.val * 5000 + p.val, hr⟩ rfl)) (weights_at V c t k q)

/-- An index of the result array is in point t's block iff each coordinate is in the block's range. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v73).slice (win2_3.rect t)).set ↔ _
  rw [View.set_slice_whole, Rect.mem_set_unit]
  exact Iff.rfl

/-- Every row of the result is in the block of the point its row number divided by 5000 names. -/
theorem cover (i : S100000x128.Idx) :
    ∃ t : Fin cfg2.N, (cfg2.win 3).flush t = true ∧ i ∈ ((cfg2.win 3).blk t).view.set := by
  have h0 : (i 0).val < 100000 := (i 0).isLt
  have h1 : (i 1).val < 128 := (i 1).isLt
  have hN : cfg2.N = 20 := N_2
  refine ⟨⟨(i 0).val / 5000, by rw [hN]; omega⟩, flush2_3 _, ?_⟩
  rw [mem_blk]
  obtain ⟨-, -, -, -, -, -, e0, e1⟩ := idx_facts ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e1]; omega

/-- The result array after the region: the layer of the arrays the region found. -/
theorem final (c : Dev nD) : (dat2 V c).arrAt 3 cfg2.N = layer V c :=
  (dat2 V c).arrAt_eq_of_cover 3 (layer V c) (fun t _ => flushed_eq V c t) cover

end Cert.KernelIdeal.Region2

end
-- ==== Proof.KernelValue.lean ====
/-
  The kernel program's result as one function of its arguments, on the extended reals.
  Walking the boundary contents from the launch memory: the first stretch of host operations leaves the node lists,
  the normalisation and layer 0's parameters; region 0 leaves layer 0 of the node features; the second stretch
  propagates it along the edges and leaves layer 1's parameters; region 1 leaves layer 1 of the logistic function
  of that; and so on, the last stretch propagating layer 2's output into the result buffer. A buffer that a region
  or a stretch does not write keeps its contents, which carries the node lists, the normalisation and the two
  parameter arrays to where they are read.
-/
import proofs.«132515_j22058952032941_1_alg».proof.Proof.Gen.KernelIdeal.Frame
import proofs.«132515_j22058952032941_1_alg».proof.Proof.HostParts
import proofs.«132515_j22058952032941_1_alg».proof.Proof.Region0
import proofs.«132515_j22058952032941_1_alg».proof.Proof.Region1
import proofs.«132515_j22058952032941_1_alg».proof.Proof.Region2

set_option maxRecDepth 16384

noncomputable section

namespace Cert.KernelIdeal.Value

open Cert.KernelIdeal Cert.KernelIdeal.Gen Cert.KernelIdeal.Stretch
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The values, as functions of the launch memory -/

/-- The source and target node lists and the normalisation, of the edge list as launched. -/
def rows (c : Dev nD) := rowOf (F := Ideal) (m ((c.tc : Thread nD τ).loc main_arg1))
def cols (c : Dev nD) := colOf (F := Ideal) (m ((c.tc : Thread nD τ).loc main_arg1))
def nrm (c : Dev nD) := nrmOf (F := Ideal) (rows m c) (cols m c)

/-- Layer 0 of the node features. -/
def lin0 (c : Dev nD) : (⟨S100000x128, .f32⟩ : BufTy).Contents (Elt Ideal) :=
  Cert.Spec.dense id (m ((c.tc : Thread nD τ).loc main_arg0)) (wT0 (F := Ideal) (m ((c.tc : Thread nD τ).loc main_arg2))) (bR0 (F := Ideal) (m ((c.tc : Thread nD τ).loc main_arg3)))
/-- Layer 0 propagated along the edges. -/
def prop0 (c : Dev nD) : (⟨S100000x128, .f32⟩ : BufTy).Contents (Elt Ideal) := propOf (F := Ideal) (rows m c) (cols m c) (nrm m c) (lin0 m c)
/-- Layer 1 of the logistic function of that. -/
def lin1 (c : Dev nD) : (⟨S100000x128, .f32⟩ : BufTy).Contents (Elt Ideal) :=
  Cert.Spec.dense Ideal.logistic (prop0 m c) (wT1 (F := Ideal) (m ((c.tc : Thread nD τ).loc main_arg2))) (bR1 (F := Ideal) (m ((c.tc : Thread nD τ).loc main_arg3)))
/-- Layer 1 propagated. -/
def prop1 (c : Dev nD) : (⟨S100000x128, .f32⟩ : BufTy).Contents (Elt Ideal) := propOf (F := Ideal) (rows m c) (cols m c) (nrm m c) (lin1 m c)
/-- Layer 2 of the logistic function of that. -/
def lin2 (c : Dev nD) : (⟨S100000x128, .f32⟩ : BufTy).Contents (Elt Ideal) :=
  Cert.Spec.dense Ideal.logistic (prop1 m c) (wT2 (F := Ideal) (m ((c.tc : Thread nD τ).loc main_arg2))) (bR2 (F := Ideal) (m ((c.tc : Thread nD τ).loc main_arg3)))
/-- Layer 2 propagated: the program's result. -/
def out (c : Dev nD) : (⟨S100000x128, .f32⟩ : BufTy).Contents (Elt Ideal) := propOf (F := Ideal) (rows m c) (cols m c) (nrm m c) (lin2 m c)

/-! ## Region 0's entry -/

theorem w1_row (c : Dev nD) : W1 m ρ c (Proc.devRef .tc main_v3) = rows m c := s0_row (W0 m ρ c)
theorem w1_col (c : Dev nD) : W1 m ρ c (Proc.devRef .tc main_v6) = cols m c := s0_col (W0 m ρ c)
theorem w1_nrm (c : Dev nD) : W1 m ρ c (Proc.devRef .tc main_v28) = nrm m c := s0_nrm (W0 m ρ c)
theorem w1_w (c : Dev nD) : W1 m ρ c (Proc.devRef .tc main_v31) = wT0 (F := Ideal) (m ((c.tc : Thread nD τ).loc main_arg2)) := s0_w (W0 m ρ c)
theorem w1_b (c : Dev nD) : W1 m ρ c (Proc.devRef .tc main_v34) = bR0 (F := Ideal) (m ((c.tc : Thread nD τ).loc main_arg3)) := s0_b (W0 m ρ c)
theorem w1_x (c : Dev nD) : W1 m ρ c (Proc.devRef .tc main_arg0) = m ((c.tc : Thread nD τ).loc main_arg0) := s0_arg0 (W0 m ρ c)
theorem w1_ws (c : Dev nD) : W1 m ρ c (Proc.devRef .tc main_arg2) = m ((c.tc : Thread nD τ).loc main_arg2) := s0_arg2 (W0 m ρ c)
theorem w1_bs (c : Dev nD) : W1 m ρ c (Proc.devRef .tc main_arg3) = m ((c.tc : Thread nD τ).loc main_arg3) := s0_arg3 (W0 m ρ c)

/-! ## Region 0's exit -/

theorem w2_h (c : Dev nD) : W2 m ρ c (Proc.devRef .tc main_v35) = lin0 m c := by
  refine (W2_arr m ρ c 3).trans ((Cert.KernelIdeal.Region0.final (V1 m ρ) c).trans ?_)
  show Cert.Spec.dense id (W1 m ρ c (Proc.devRef .tc main_arg0)) (W1 m ρ c (Proc.devRef .tc main_v31)) (W1 m ρ c (Proc.devRef .tc main_v34)) = _
  rw [w1_x, w1_w, w1_b]; rfl
theorem w2_row (c : Dev nD) : W2 m ρ c (Proc.devRef .tc main_v3) = rows m c := (W2_of_ne m ρ c main_v3 (by decide)).trans (w1_row m ρ c)
theorem w2_col (c : Dev nD) : W2 m ρ c (Proc.devRef .tc main_v6) = cols m c := (W2_of_ne m ρ c main_v6 (by decide)).trans (w1_col m ρ c)
theorem w2_nrm (c : Dev nD) : W2 m ρ c (Proc.devRef .tc main_v28) = nrm m c := (W2_of_ne m ρ c main_v28 (by decide)).trans (w1_nrm m ρ c)
theorem w2_ws (c : Dev nD) : W2 m ρ c (Proc.devRef .tc main_arg2) = m ((c.tc : Thread nD τ).loc main_arg2) := (W2_of_ne m ρ c main_arg2 (by decide)).trans (w1_ws m ρ c)
theorem w2_bs (c : Dev nD) : W2 m ρ c (Proc.devRef .tc main_arg3) = m ((c.tc : Thread nD τ).loc main_arg3) := (W2_of_ne m ρ c main_arg3 (by decide)).trans (w1_bs m ρ c)

/-! ## Region 1's entry -/

theorem w3_h (c : Dev nD) : W3 m ρ c (Proc.devRef .tc main_v47) = prop0 m c := by
  refine (s1_h (W2 m ρ c)).trans ?_
  rw [w2_row, w2_col, w2_nrm, w2_h]; rfl
theorem w3_w (c : Dev nD) : W3 m ρ c (Proc.devRef .tc main_v50) = wT1 (F := Ideal) (m ((c.tc : Thread nD τ).loc main_arg2)) := by
  refine (s1_w (W2 m ρ c)).trans ?_; rw [w2_ws]
theorem w3_b (c : Dev nD) : W3 m ρ c (Proc.devRef .tc main_v53) = bR1 (F := Ideal) (m ((c.tc : Thread nD τ).loc main_arg3)) := by
  refine (s1_b (W2 m ρ c)).trans ?_; rw [w2_bs]
theorem w3_row (c : Dev nD) : W3 m ρ c (Proc.devRef .tc main_v3) = rows m c := (s1_row (W2 m ρ c)).trans (w2_row m ρ c)
theorem w3_col (c : Dev nD) : W3 m ρ c (Proc.devRef .tc main_v6) = cols m c := (s1_col (W2 m ρ c)).trans (w2_col m ρ c)
theorem w3_nrm (c : Dev nD) : W3 m ρ c (Proc.devRef .tc main_v28) = nrm m c := (s1_nrm (W2 m ρ c)).trans (w2_nrm m ρ c)
theorem w3_ws (c : Dev nD) : W3 m ρ c (Proc.devRef .tc main_arg2) = m ((c.tc : Thread nD τ).loc main_arg2) := (s1_arg2 (W2 m ρ c)).trans (w2_ws m ρ c)
theorem w3_bs (c : Dev nD) : W3 m ρ c (Proc.devRef .tc main_arg3) = m ((c.tc : Thread nD τ).loc main_arg3) := (s1_arg3 (W2 m ρ c)).trans (w2_bs m ρ c)

/-! ## Region 1's exit -/

theorem w4_h (c : Dev nD) : W4 m ρ c (Proc.devRef .tc main_v54) = lin1 m c := by
  refine (W4_arr m ρ c 3).trans ((Cert.KernelIdeal.Region1.final (V3 m ρ) c).trans ?_)
  show Cert.Spec.dense Ideal.logistic (W3 m ρ c (Proc.devRef .tc main_v47)) (W3 m ρ c (Proc.devRef .tc main_v50)) (W3 m ρ c (Proc.devRef .tc main_v53)) = _
  rw [w3_h, w3_w, w3_b]; rfl
theorem w4_row (c : Dev nD) : W4 m ρ c (Proc.devRef .tc main_v3) = rows m c := (W4_of_ne m ρ c main_v3 (by decide)).trans (w3_row m ρ c)
theorem w4_col (c : Dev nD) : W4 m ρ c (Proc.devRef .tc main_v6) = cols m c := (W4_of_ne m ρ c main_v6 (by decide)).trans (w3_col m ρ c)
theorem w4_nrm (c : Dev nD) : W4 m ρ c (Proc.devRef .tc main_v28) = nrm m c := (W4_of_ne m ρ c main_v28 (by decide)).trans (w3_nrm m ρ c)
theorem w4_ws (c : Dev nD) : W4 m ρ c (Proc.devRef .tc main_arg2) = m ((c.tc : Thread nD τ).loc main_arg2) := (W4_of_ne m ρ c main_arg2 (by decide)).trans (w3_ws m ρ c)
theorem w4_bs (c : Dev nD) : W4 m ρ c (Proc.devRef .tc main_arg3) = m ((c.tc : Thread nD τ).loc main_arg3) := (W4_of_ne m ρ c main_arg3 (by decide)).trans (w3_bs m ρ c)

/-! ## Region 2's entry -/

theorem w5_h (c : Dev nD) : W5 m ρ c (Proc.devRef .tc main_v66) = prop1 m c := by
  refine (s2_h (W4 m ρ c)).trans ?_
  rw [w4_row, w4_col, w4_nrm, w4_h]; rfl
theorem w5_w (c : Dev nD) : W5 m ρ c (Proc.devRef .tc main_v69) = wT2 (F := Ideal) (m ((c.tc : Thread nD τ).loc main_arg2)) := by
  refine (s2_w (W4 m ρ c)).trans ?_; rw [w4_ws]
theorem w5_b (c : Dev nD) : W5 m ρ c (Proc.devRef .tc main_v72) = bR2 (F := Ideal) (m ((c.tc : Thread nD τ).loc main_arg3)) := by
  refine (s2_b (W4 m ρ c)).trans ?_; rw [w4_bs]
theorem w5_row (c : Dev nD) : W5 m ρ c (Proc.devRef .tc main_v3) = rows m c := (s2_row (W4 m ρ c)).trans (w4_row m ρ c)
theorem w5_col (c : Dev nD) : W5 m ρ c (Proc.devRef .tc main_v6) = cols m c := (s2_col (W4 m ρ c)).trans (w4_col m ρ c)
theorem w5_nrm (c : Dev nD) : W5 m ρ c (Proc.devRef .tc main_v28) = nrm m c := (s2_nrm (W4 m ρ c)).trans (w4_nrm m ρ c)

/-! ## Region 2's exit -/

theorem w6_h (c : Dev nD) : W6 m ρ c (Proc.devRef .tc main_v73) = lin2 m c := by
  refine (W6_arr m ρ c 3).trans ((Cert.KernelIdeal.Region2.final (V5 m ρ) c).trans ?_)
  show Cert.Spec.dense Ideal.logistic (W5 m ρ c (Proc.devRef .tc main_v66)) (W5 m ρ c (Proc.devRef .tc main_v69)) (W5 m ρ c (Proc.devRef .tc main_v72)) = _
  rw [w5_h, w5_w, w5_b]; rfl
theorem w6_row (c : Dev nD) : W6 m ρ c (Proc.devRef .tc main_v3) = rows m c := (W6_of_ne m ρ c main_v3 (by decide)).trans (w5_row m ρ c)
theorem w6_col (c : Dev nD) : W6 m ρ c (Proc.devRef .tc main_v6) = cols m c := (W6_of_ne m ρ c main_v6 (by decide)).trans (w5_col m ρ c)
theorem w6_nrm (c : Dev nD) : W6 m ρ c (Proc.devRef .tc main_v28) = nrm m c := (W6_of_ne m ρ c main_v28 (by decide)).trans (w5_nrm m ρ c)

/-! ## The result -/

/-- The result buffer after the last stretch: three layers, each propagated along the edges. -/
theorem result (c : Dev nD) : W7 m ρ c (Proc.devRef .tc main_v85) = out m c := by
  refine (s3_h (W6 m ρ c)).trans ?_
  rw [w6_row, w6_col, w6_nrm, w6_h]; rfl

end Cert.KernelIdeal.Value

end
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.RefLayers.lean ====
/-
  The reference program's three layers on the extended reals. Its linear layer, a host product of the node matrix
  with the transposed weight matrix plus the bias row repeated down the rows, is the layer of Spec.lean; its
  activation, written out as 1 / (1 + e^(-h)) with host operations, is the logistic function entry by entry; so
  a layer applied after an activation is the layer with the logistic function applied to its input first.
-/
import proofs.«132515_j22058952032941_1_alg».proof.Proof.Gen.ReferenceIdeal.Read
import proofs.«132515_j22058952032941_1_alg».proof.Proof.Spec
import proofs.«132515_j22058952032941_1_alg».proof.Proof.LibPlainDot
import proofs.«132515_j22058952032941_1_alg».proof.Proof.LibHostBroadcast

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

/-- A host product with the bias row added to every row is the linear layer. -/
theorem linear_eq (h : FVec Ideal S100000x128 .f32) (w : FVec Ideal S128x128 .f32) (b : FVec Ideal S1x128 .f32) :
    addf (F := Ideal) (Host.dotGeneral dot_S100000x128_S128x128_S100000x128_1_0_0_1_n_n none h w) (broadcastInDim S100000x128 ![0, 1] bcast_S1x128_S100000x128_0_1 b)
      = (Cert.Spec.dense id h w b : FVec Ideal S100000x128 .f32) := by
  funext i
  obtain ⟨p, q, rfl⟩ : ∃ (p : Fin 100000) (q : Fin 128), i = ix2 p q := ⟨i 0, i 1, eq_ix2 i⟩
  rw [addf_apply, Cert.LibHostBroadcast.row_at b bcast_S1x128_S100000x128_0_1 p q, Cert.Spec.dense_at]
  simp only [Host.dotGeneral]
  rw [Cert.LibPlainDot.dotGeneral_at dot_S100000x128_S128x128_S100000x128_1_0_0_1_n_n rfl rfl rfl rfl rfl rfl rfl rfl none _ h w p q]
  rfl

/-- A layer of an activated matrix is the layer with the activation applied to its input first. -/
theorem dense_comp (act : EReal → EReal) (X : (⟨2, ![100000, 128]⟩ : Shape).Idx → EReal)
    (W : (⟨2, ![128, 128]⟩ : Shape).Idx → EReal) (B : (⟨2, ![1, 128]⟩ : Shape).Idx → EReal) :
    Cert.Spec.dense id (fun i => act (X i)) W B = Cert.Spec.dense act X W B := rfl

/-- The splat of the f32 one. -/
abbrev ones : FVec Ideal S100000x128 .f32 :=
  broadcastInDim S100000x128 ![] bcast_S_S100000x128 (constant (F := Ideal) S_ .f32 0x3F800000#32)

theorem ones_at (i : S100000x128.Idx) : ones i = (1 : EReal) := by
  show broadcastInDim S100000x128 ![] bcast_S_S100000x128 (constant (F := Ideal) S_ .f32 0x3F800000#32) i = 1
  rw [Cert.LibHostBroadcast.scalar_at]
  show Ideal.ofBits .f32 0x3F800000#32 = 1
  simp [Ideal.ofBits, Ideal.ieee, -EReal.coe_mul]
  norm_num

/-- 1 / (1 + e^(-h)) in host operations is the logistic function of every entry. -/
theorem sigmoid_eq (h : FVec Ideal S100000x128 .f32) :
    Host.divf (F := Ideal) ones (addf ones (Host.exp (Host.negf h))) = fun i => Ideal.logistic (h i) := by
  funext i
  show FloatOps.hostDivf (F := Ideal) (φ := .f32) (ones i) (FloatOps.addf (ones i) (FloatOps.hostUnary .exp (FloatOps.hostNegf (h i)))) = Ideal.logistic (h i)
  rw [ones_at]
  rfl

variable (x0 : (⟨S100000x128, .f32⟩ : BufTy).Contents (Elt Ideal)) (x1 : (⟨S2x1600000, .i32⟩ : BufTy).Contents (Elt Ideal)) (x2 : (⟨S3x128x128, .f32⟩ : BufTy).Contents (Elt Ideal)) (x3 : (⟨S3x128, .f32⟩ : BufTy).Contents (Elt Ideal))

/-- Layer 0 of the node features. -/
theorem layer0 : val_main_v37 (F := Ideal) x0 x2 x3 = Cert.Spec.dense id x0 (val_main_v33 (F := Ideal) x2) (val_main_v35 (F := Ideal) x3) := by
  unfold val_main_v37 val_main_v34 val_main_v36
  exact linear_eq _ _ _

/-- The activation after layer 0's propagation. -/
theorem act1 : val_main_v55 (F := Ideal) x0 x1 x2 x3 = fun i => Ideal.logistic (val_main_v49 (F := Ideal) x0 x1 x2 x3 i) := by
  unfold val_main_v55 val_main_v54 val_main_cst_9 val_main_v53 val_main_v52 val_main_cst_8 val_main_v51 val_main_v50
  exact sigmoid_eq _

/-- Layer 1 of what layer 0 propagated. -/
theorem layer1 : val_main_v64 (F := Ideal) x0 x1 x2 x3
    = Cert.Spec.dense Ideal.logistic (val_main_v49 (F := Ideal) x0 x1 x2 x3) (val_main_v60 (F := Ideal) x2) (val_main_v62 (F := Ideal) x3) := by
  unfold val_main_v64 val_main_v61 val_main_v63
  rw [linear_eq, act1]
  exact dense_comp Ideal.logistic _ _ _

/-- The activation after layer 1's propagation. -/
theorem act2 : val_main_v82 (F := Ideal) x0 x1 x2 x3 = fun i => Ideal.logistic (val_main_v76 (F := Ideal) x0 x1 x2 x3 i) := by
  unfold val_main_v82 val_main_v81 val_main_cst_14 val_main_v80 val_main_v79 val_main_cst_13 val_main_v78 val_main_v77
  exact sigmoid_eq _

/-- Layer 2 of what layer 1 propagated. -/
theorem layer2 : val_main_v91 (F := Ideal) x0 x1 x2 x3
    = Cert.Spec.dense Ideal.logistic (val_main_v76 (F := Ideal) x0 x1 x2 x3) (val_main_v87 (F := Ideal) x2) (val_main_v89 (F := Ideal) x3) := by
  unfold val_main_v91 val_main_v88 val_main_v90
  rw [linear_eq, act2]
  exact dense_comp Ideal.logistic _ _ _

end Cert.ReferenceIdeal.Layers

end
-- ==== Proof.Bridge.lean ====
/-
  The two programs' host sides are one. The reference computes the node lists, the normalisation, the transposed
  weight matrices and each propagation with the very operations the kernel program's host stretches use, so each
  of its stages is the kernel side's function of the same arguments; its bias row, a vector laid out as a row by
  a broadcast, is the kernel side's, the same vector laid out as a row by a shape cast: both are row k of the
  bias array. With the layers of RefLayers.lean, the reference's result is the kernel program's function (the
  three layers, each propagated) of the arguments.
-/
import proofs.«132515_j22058952032941_1_alg».proof.Proof.RefLayers
import proofs.«132515_j22058952032941_1_alg».proof.Proof.HostParts
import Idealize.ShloMosaic.Lib.Pipeline.Value

set_option maxRecDepth 16384

noncomputable section

namespace Cert.Bridge

open Cert.ReferenceIdeal.Read Cert.ReferenceIdeal.Layers Cert.KernelIdeal.Stretch
open Idealize.ShloMosaic Idealize.ShloMosaic.TcCoe Idealize.ShloMosaic.ValueIdx

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S3x128x128, .f32⟩ : BufTy).Contents (Elt Ideal)) (x3 : (⟨Cert.ReferenceIdeal.S3x128, .f32⟩ : BufTy).Contents (Elt Ideal))

/-! ## The node lists, the normalisation, the weights -/

theorem row_eq : val_main_v3 (F := Ideal) x1 = rowOf (F := Ideal) x1 := rfl
theorem col_eq : val_main_v6 (F := Ideal) x1 = colOf (F := Ideal) x1 := rfl
theorem nrm_eq : val_main_v28 (F := Ideal) x1 = nrmOf (F := Ideal) (rowOf (F := Ideal) x1) (colOf (F := Ideal) x1) := rfl
theorem w0_eq : val_main_v33 (F := Ideal) x2 = wT0 (F := Ideal) x2 := rfl
theorem w1_eq : val_main_v60 (F := Ideal) x2 = wT1 (F := Ideal) x2 := rfl
theorem w2_eq : val_main_v87 (F := Ideal) x2 = wT2 (F := Ideal) x2 := rfl

/-! ## The bias rows -/

/-- The index of a row entry, through the broadcast and the cast back, is itself. -/
theorem idx_row (i : Cert.ReferenceIdeal.S1x128.Idx) : idx_main_v32 (idx_main_v35 i) = i := by
  funext a; apply Fin.ext
  match a with
  | ⟨0, _⟩ => show 0 = (i 0).val; have h : (i 0).val < 1 := (i 0).isLt; omega
  | ⟨1, _⟩ => show (i 1).val % 128 = (i 1).val; have h : (i 1).val < 128 := (i 1).isLt; omega

theorem b0_eq : val_main_v35 (F := Ideal) x3 = bR0 (F := Ideal) x3 := by
  have hK : bR0 (F := Ideal) x3 = val_main_v31 (F := Ideal) x3 := by
    unfold bR0; rw [shapeCast_shapeCast]; rfl
  rw [hK]; funext i
  rw [val_main_v35_apply, val_main_v32_apply]
  exact congrArg _ (idx_row i)

theorem b1_eq : val_main_v62 (F := Ideal) x3 = bR1 (F := Ideal) x3 := by
  have hK : bR1 (F := Ideal) x3 = val_main_v58 (F := Ideal) x3 := by
    unfold bR1; rw [shapeCast_shapeCast]; rfl
  rw [hK]; funext i
  rw [val_main_v62_apply, val_main_v59_apply]
  exact congrArg _ (idx_row i)

theorem b2_eq : val_main_v89 (F := Ideal) x3 = bR2 (F := Ideal) x3 := by
  have hK : bR2 (F := Ideal) x3 = val_main_v85 (F := Ideal) x3 := by
    unfold bR2; rw [shapeCast_shapeCast]; rfl
  rw [hK]; funext i
  rw [val_main_v89_apply, val_main_v86_apply]
  exact congrArg _ (idx_row i)

/-! ## The propagations -/

theorem prop0_eq : val_main_v49 (F := Ideal) x0 x1 x2 x3
    = propOf (F := Ideal) (rowOf (F := Ideal) x1) (colOf (F := Ideal) x1) (nrmOf (F := Ideal) (rowOf (F := Ideal) x1) (colOf (F := Ideal) x1)) (val_main_v37 (F := Ideal) x0 x2 x3) := rfl
theorem prop1_eq : val_main_v76 (F := Ideal) x0 x1 x2 x3
    = propOf (F := Ideal) (rowOf (F := Ideal) x1) (colOf (F := Ideal) x1) (nrmOf (F := Ideal) (rowOf (F := Ideal) x1) (colOf (F := Ideal) x1)) (val_main_v64 (F := Ideal) x0 x1 x2 x3) := rfl
theorem prop2_eq : val_main_v103 (F := Ideal) x0 x1 x2 x3
    = propOf (F := Ideal) (rowOf (F := Ideal) x1) (colOf (F := Ideal) x1) (nrmOf (F := Ideal) (rowOf (F := Ideal) x1) (colOf (F := Ideal) x1)) (val_main_v91 (F := Ideal) x0 x1 x2 x3) := rfl

/-! ## The reference's result -/

/-- The reference's result: three layers, each propagated along the edges — the kernel program's function. -/
theorem ref_result : val_main_v103 (F := Ideal) x0 x1 x2 x3
    = propOf (F := Ideal) (rowOf (F := Ideal) x1) (colOf (F := Ideal) x1) (nrmOf (F := Ideal) (rowOf (F := Ideal) x1) (colOf (F := Ideal) x1))
        (Cert.Spec.dense Ideal.logistic
          (propOf (F := Ideal) (rowOf (F := Ideal) x1) (colOf (F := Ideal) x1) (nrmOf (F := Ideal) (rowOf (F := Ideal) x1) (colOf (F := Ideal) x1))
            (Cert.Spec.dense Ideal.logistic
              (propOf (F := Ideal) (rowOf (F := Ideal) x1) (colOf (F := Ideal) x1) (nrmOf (F := Ideal) (rowOf (F := Ideal) x1) (colOf (F := Ideal) x1))
                (Cert.Spec.dense id x0 (wT0 (F := Ideal) x2) (bR0 (F := Ideal) x3)))
              (wT1 (F := Ideal) x2) (bR1 (F := Ideal) x3)))
          (wT2 (F := Ideal) x2) (bR2 (F := Ideal) x3)) := by
  rw [prop2_eq, layer2, prop1_eq, layer1, prop0_eq, layer0, w0_eq, w1_eq, w2_eq, b0_eq, b1_eq, b2_eq]

end Cert.Bridge

end
-- ==== Proof.lean ====
/-
  A three-layer graph convolution: kernel against reference, on the extended reals.
  Both programs compute, from node features x [100000,128], an edge list, three weight matrices and three bias
  vectors:  h ← x;  for each layer:  h ← propagate(act(h) · Wᵀ + b),  where propagate sums, at each target node, the
  normalised rows of the source nodes over the edges (self loops added), and act is the identity for the first layer
  and the logistic function for the other two.
  The kernel program computes each act(h) · Wᵀ + b in a grid-pipelined region, 5000 rows at a time, the logistic
  function applied inside the region; the reference computes it with a host product and applies the activation,
  written 1 / (1 + e^(-h)), after the propagation. On the extended reals the region's array is the same layer
  (Region0–2.lean, LayerAt.lean, Spec.lean; RefLayers.lean for the reference), the host operations around it are
  the same on both sides (HostParts.lean, Bridge.lean), and the kernel program's run walks them in order
  (KernelRun.lean, KernelValue.lean). No step uses finiteness of the inputs: both sides are the same expression.
  The ideal pass rewrote nothing, so the idealization claim is trivial; the three frames are the generated ones,
  the reference's being its generated run with the result dropped.
-/
import proofs.«132515_j22058952032941_1_alg».proof.Defs
import proofs.«132515_j22058952032941_1_alg».proof.Proof.Gen.Kernel
import proofs.«132515_j22058952032941_1_alg».proof.Proof.Gen.Kernel.Skeleton
import proofs.«132515_j22058952032941_1_alg».proof.Proof.Gen.Kernel.Launch
import proofs.«132515_j22058952032941_1_alg».proof.Proof.Gen.Kernel.Points
import proofs.«132515_j22058952032941_1_alg».proof.Proof.Gen.Kernel.Frame
import proofs.«132515_j22058952032941_1_alg».proof.Proof.Gen.KernelIdeal
import proofs.«132515_j22058952032941_1_alg».proof.Proof.Gen.KernelIdeal.Skeleton
import proofs.«132515_j22058952032941_1_alg».proof.Proof.Gen.KernelIdeal.Launch
import proofs.«132515_j22058952032941_1_alg».proof.Proof.Gen.KernelIdeal.Points
import proofs.«132515_j22058952032941_1_alg».proof.Proof.Gen.KernelIdeal.Frame
import proofs.«132515_j22058952032941_1_alg».proof.Proof.Gen.ReferenceIdeal
import proofs.«132515_j22058952032941_1_alg».proof.Proof.Gen.Pre_finite_inputs
import proofs.«132515_j22058952032941_1_alg».proof.Proof.Gen.ReferenceIdeal.Run
import proofs.«132515_j22058952032941_1_alg».proof.Proof.Gen.ReferenceIdeal.Read
import proofs.«132515_j22058952032941_1_alg».proof.Proof.KernelRun
import proofs.«132515_j22058952032941_1_alg».proof.Proof.KernelValue
import proofs.«132515_j22058952032941_1_alg».proof.Proof.Bridge
import Idealize.ShloMosaic.Adequacy
import Idealize.ShloMosaic.Init

set_option maxRecDepth 16384

noncomputable section

namespace Cert.Proof

open Idealize.ShloMosaic Idealize.SL.Sem

namespace Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the three layers, each propagated along the edges, of arguments that agree. -/
theorem algebraic : Cert.algebraic_KernelIdeal_ReferenceIdeal := by
  intro m ρ m' ρ' _ hagree
  refine ⟨fun c => Cert.KernelIdeal.Value.out m c, ?_, ?_⟩
  · exact (θ_run Cert.KernelIdeal.defs _ _).mono
      (fun r h c => ⟨(h c).1.trans (Cert.KernelIdeal.Value.result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq, (hagree c).1, (hagree c).2.1, (hagree c).2.2.1, (hagree c).2.2.2]
    refine (Cert.Bridge.ref_result _ _ _ _).trans ?_
    unfold Cert.KernelIdeal.Value.out Cert.KernelIdeal.Value.lin2 Cert.KernelIdeal.Value.prop1 Cert.KernelIdeal.Value.lin1
      Cert.KernelIdeal.Value.prop0 Cert.KernelIdeal.Value.lin0 Cert.KernelIdeal.Value.nrm Cert.KernelIdeal.Value.rows Cert.KernelIdeal.Value.cols
    rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
